-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1 .f32) (main_arg1 : FVec F S16384 .f32) (main_arg2 : FVec F S16384 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x1 : Shape := ⟨2, ![16384, 1]⟩
abbrev S16384 : Shape := ⟨1, ![16384]⟩
abbrev S1x16384 : Shape := ⟨2, ![1, 16384]⟩
abbrev S1024x1 : Shape := ⟨2, ![1024, 1]⟩
abbrev S1x256 : Shape := ⟨2, ![1, 256]⟩
abbrev S1024x256 : Shape := ⟨2, ![1024, 256]⟩
abbrev S256 : Shape := ⟨1, ![256]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S16384x1, .f32⟩
  | .hbm, ⟨5, _⟩ => ⟨S1x16384, .f32⟩
  | .hbm, ⟨6, _⟩ => ⟨S1x16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  shapeCasts_S16384_S1x16384 : S16384.ShapeCasts S1x16384
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  broadcasts_S1x256_S1024x256 : S1x256.Broadcasts S1024x256
  natLt_1_32 : 1 < 32
  reduces_S1024x256_S256 : S1024x256.Reduces [0] S256
  shapeCasts_S256_S1x256 : S256.ShapeCasts S1x256
  shapeCasts_S1x16384_S16384x1 : S1x16384.ShapeCasts S16384x1
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S16384x16384 : Shape := ⟨2, ![16384, 16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .i1⟩
  | .hbm, ⟨14, _⟩ => ⟨S16384x16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S16384_S16384x1 : S16384.ShapeCasts S16384x1
  reducesTo_S16384x1_S_d0_1 : S16384x1.ReducesTo [0, 1] S_
  h_S_ : 0 < S_.numel
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384

variable [Facts₀]

class Facts : Prop extends Facts₀ where

variable [Facts]
-- ==== Proof.KPieces.lean ====
/-
  The kernel body's stores read back as values, at any float instance.
-/
import proofs.«122557_j48249662603872_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RiskValue

open Cert.KernelIdeal Cert.KernelIdeal.Gen

variable {F : FTy → Type} [FloatOps F]

/-! What the body leaves behind, case by case. The body has one store into the accumulator (preceded, at the
    first point of a grid row, by a store of the zero block) and, at the last point of a grid row, a copy of the
    accumulator into the output block. Each store covers its whole buffer at offset zero, so what a buffer holds
    afterwards is the last store's value: the accumulated block `acc + (lane sums of the masked risk tile)`,
    written `k0_pay2` of the three input blocks and the accumulator's previous contents. -/

theorem hz : (![0, 0] : Fin 2 → Nat) = fun _ => 0 := funext fun a => by fin_cases a <;> rfl

/-- A point inside a grid row: the accumulator ends at the accumulated block over what the point before left. -/
theorem sB (c : Dev nD) (i : grid0.Coords) (a2 : Memref sig .tc .vmem S1024x1 .f32) (h2 : a2.IsWhole)
    (a3 : Memref sig .tc .vmem S1024x1 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (hc0 : ¬cond0_0 i) (hc1 : ¬cond0_1 i) (x0 x1 : Vec F S1024x1 .f32) (x2 xs : Vec F S1x256 .f32) :
    sout0_B_0 c i a2 h2 a3 h3 a4 h4 a5 h5 a6 h6 hc0 hc1 x0 x1 x2 xs = k0_pay2 x1 x2 x0 xs := by
  unfold sout0_B_0
  rw [View.read_writes_eq_canon _ _ _ (scover0_B_0 c i a2 h2 a3 h3 a4 h4 a5 h5 a6 h6 hc0 hc1 x0 x1 x2 xs)]
  unfold kernelRun0_B
  dsimp only
  rw [View.canon_unit_zero hz]
  simp only [View.readAt_eq_ld, h2.read_unread, h3.read_unread, h4.read_unread, h6.read_unread,
    View.ld_unit_zero (S := S1024x1) hz, View.ld_unit_zero (S := S1x256) hz]

/-- The last point of a grid row: the same for the accumulator … -/
theorem sC (c : Dev nD) (i : grid0.Coords) (a2 : Memref sig .tc .vmem S1024x1 .f32) (h2 : a2.IsWhole)
    (a3 : Memref sig .tc .vmem S1024x1 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (hc0 : ¬cond0_0 i) (hc1 : cond0_1 i) (x0 x1 : Vec F S1024x1 .f32) (x2 xs : Vec F S1x256 .f32) :
    sout0_C_0 c i a2 h2 a3 h3 a4 h4 a5 h5 a6 h6 hc0 hc1 x0 x1 x2 xs = k0_pay2 x1 x2 x0 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.ld_unit_zero (S := S1024x1) hz, View.ld_unit_zero (S := S1x256) hz]

/-- … and the output block is the accumulator read back after that store. -/
theorem oC (c : Dev nD) (i : grid0.Coords) (a2 : Memref sig .tc .vmem S1024x1 .f32) (h2 : a2.IsWhole)
    (a3 : Memref sig .tc .vmem S1024x1 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (hc0 : ¬cond0_0 i) (hc1 : cond0_1 i) (x0 x1 : Vec F S1024x1 .f32) (x2 xs : Vec F S1x256 .f32) :
    out0_C_3 c i a2 h2 a3 h3 a4 h4 a5 h5 a6 h6 hc0 hc1 x0 x1 x2 xs = k0_pay2 x1 x2 x0 xs := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1x256) _ hz]
  simp only [View.readAt_eq_ld, h2.read_unread, h3.read_unread, h4.read_unread, h6.read_unread,
    View.ld_unit_zero (S := S1024x1) hz, View.ld_unit_zero (S := S1x256) hz]

/-- The first point of a grid row: the accumulator is reset to the zero block and read back before the block is
    accumulated, so it ends at the accumulated block over zero. -/
theorem sA (c : Dev nD) (i : grid0.Coords) (a2 : Memref sig .tc .vmem S1024x1 .f32) (h2 : a2.IsWhole)
    (a3 : Memref sig .tc .vmem S1024x1 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (hc0 : cond0_0 i) (hc1 : ¬cond0_1 i) (x0 x1 : Vec F S1024x1 .f32) (x2 : Vec F S1x256 .f32) :
    sout0_A_0 c i a2 h2 a3 h3 a4 h4 a5 h5 a6 h6 hc0 hc1 x0 x1 x2 = k0_pay2 x1 x2 x0 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread,
    View.ld_unit_zero (S := S1024x1) hz, View.ld_unit_zero (S := S1x256) hz]

end Cert.KernelIdeal.RiskValue

end
-- ==== Proof.RiskSum.lean ====
/-
  The risk-set sums of the Cox partial likelihood over the extended reals: the 0/1 membership of one sample in
  another's risk set, partial sums over the first n samples, and the step that extends a partial sum by one
  tile of 1024 samples. Addition on the extended reals is a commutative monoid, so a sum taken tile by tile is
  the sum over all samples; nothing here needs the summands to be finite.
-/
import Idealize.ShloMosaic.PureOps.Ideal
import Idealize.ShloMosaic.PureOps.Ideal.Laws
import Idealize.ShloMosaic.Lib.ValueIdx

noncomputable section

open scoped BigOperators

namespace Cert.CoxRisk

open Idealize.ShloMosaic

/-- Membership of sample `i` in the risk set of sample `j`, as a number: `1` when `yᵢ - yⱼ ≥ 0`, else `0`
    (the comparison's bit read unsigned). -/
def member (yi yj : EReal) : EReal :=
  FloatOps.uitofp (F := Ideal) .f32
    (FloatOps.cmpf (F := Ideal) (φ := .f32) .oge (FloatOps.subf (F := Ideal) (φ := .f32) yi yj) (Ideal.ofBits .f32 0x00000000#32))

/-- A one-bit word widened to 32 bits and read signed is the bit read unsigned: both are `0` or `1`. -/
theorem bit_widened (b : BitVec 1) :
    FloatOps.sitofp (F := Ideal) .f32 (b.setWidth 32) = FloatOps.uitofp (F := Ideal) .f32 b := by
  show (((b.setWidth 32).toInt : ℝ) : EReal) = ((b.toNat : ℝ) : EReal)
  rcases BitVec.eq_zero_or_eq_one b with h | h <;> subst h <;> simp

/-- The risk mass of the first `n` samples against a sample whose time is `yj`:
    `∑_{k < n} e_k · [y_k - yj ≥ 0]`. -/
def partialRisk (E Y : ℕ → EReal) (yj : EReal) (n : ℕ) : EReal :=
  ∑ k ∈ Finset.range n, E k * member (Y k) yj

theorem partialRisk_zero (E Y : ℕ → EReal) (yj : EReal) : partialRisk E Y yj 0 = 0 := by
  simp [partialRisk]

/-- Adding the next tile of 1024 samples extends the partial sum by 1024 terms. -/
theorem partialRisk_tile (E Y : ℕ → EReal) (yj : EReal) (n : ℕ) (tile : Fin 1024 → EReal)
    (h : ∀ p : Fin 1024, tile p = E (1024 * n + p.val) * member (Y (1024 * n + p.val)) yj) :
    partialRisk E Y yj (1024 * n) + ∑ p, tile p = partialRisk E Y yj (1024 * (n + 1)) := by
  unfold partialRisk
  rw [show 1024 * (n + 1) = 1024 * n + 1024 by ring, Finset.sum_range_add]
  congr 1
  rw [Finset.sum_range]
  exact Finset.sum_congr rfl fun p _ => h p

/-- All 16384 samples: the sum over every sample. -/
theorem partialRisk_all (E Y : ℕ → EReal) (yj : EReal) :
    partialRisk E Y yj 16384 = ∑ k : Fin 16384, E k.val * member (Y k.val) yj := by
  unfold partialRisk
  rw [Finset.sum_range]

/-- The exponentiated log-risk of sample `k` (zero past the last sample, so that sums may be taken over `ℕ`). -/
def expRisk (lr : (⟨2, ![16384, 1]⟩ : Shape).Idx → EReal) (k : ℕ) : EReal :=
  if h : k < 16384 then FloatOps.hostUnary (F := Ideal) (φ := .f32) .exp (lr (ValueIdx.ix2 ⟨k, h⟩ (0 : Fin 1))) else 0

/-- The event time of sample `k` (zero past the last sample). -/
def timeOf (yt : (⟨1, ![16384]⟩ : Shape).Idx → EReal) (k : ℕ) : EReal :=
  if h : k < 16384 then yt (ValueIdx.ix1 ⟨k, h⟩) else 0

theorem expRisk_fin (lr : (⟨2, ![16384, 1]⟩ : Shape).Idx → EReal) (k : Fin 16384) :
    expRisk lr k.val = FloatOps.hostUnary (F := Ideal) (φ := .f32) .exp (lr (ValueIdx.ix2 k (0 : Fin 1))) :=
  dif_pos k.isLt

theorem timeOf_fin (yt : (⟨1, ![16384]⟩ : Shape).Idx → EReal) (k : Fin 16384) :
    timeOf yt k.val = yt (ValueIdx.ix1 k) :=
  dif_pos k.isLt

/-- The risk-set denominator of sample `j`: `∑ₖ exp(lrₖ) · [tₖ - tⱼ ≥ 0]` over all 16384 samples. -/
def sumRisk (lr : (⟨2, ![16384, 1]⟩ : Shape).Idx → EReal) (yt : (⟨1, ![16384]⟩ : Shape).Idx → EReal) (j : ℕ) : EReal :=
  partialRisk (expRisk lr) (timeOf yt) (timeOf yt j) 16384

end Cert.CoxRisk

end
-- ==== Proof.KPayload.lean ====
/-
  The accumulated block read at a lane, at the ideal instance: the previous accumulator there plus the sum, over
  the tile's 1024 rows, of exp-risk times membership. The mask is a comparison bit widened to 32 bits and read
  signed, which is the bit read unsigned.
-/
import proofs.«122557_j48249662603872_2_alg».proof.Proof.Gen.KernelIdeal.Skeleton
import proofs.«122557_j48249662603872_2_alg».proof.Proof.RiskSum
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.RiskValue

open Cert.KernelIdeal Cert.KernelIdeal.Gen Cert.CoxRisk

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem pay2_apply (v3 : Vec Ideal S1024x1 .f32) (v5 : Vec Ideal S1x256 .f32) (v14 : Vec Ideal S1024x1 .f32)
    (v18 : Vec Ideal S1x256 .f32) (u : Fin 1) (q : Fin 256) :
    k0_pay2 (F := Ideal) v3 v5 v14 v18 (ix2 u q)
      = v18 (ix2 u q) + ∑ p : Fin 1024, v14 (ix2 p (0 : Fin 1)) * member (v3 (ix2 p (0 : Fin 1))) (v5 (ix2 (0 : Fin 1) q)) := by
  unfold k0_pay2
  dsimp only
  simp only [shapeCast_self]
  show v18 (ix2 u q) + shapeCast S1x256 _ shapeCasts_S256_S1x256 (ix2 u q) = _
  refine congrArg (v18 (ix2 u q) + ·) ?_
  refine (shapeCast_a_1a_apply _ shapeCasts_S256_S1x256 u q).trans ?_
  refine (Ideal.multiReduction_add_single _ _ reduces_S1024x256_S256 _ _ (ix1 q)).trans ?_
  show ∑ p : Fin 1024, _ = _
  refine Finset.sum_congr rfl fun p _ => ?_
  have hl : reduces_S1024x256_S256.lift (ix1 q) p = (ix2 p q : S1024x256.Idx) :=
    funext fun a => Fin.ext (by match a with | ⟨0, _⟩ => rfl | ⟨1, _⟩ => rfl)
  rw [hl]
  show broadcastTo S1024x256 v14 broadcasts_S1024x1_S1024x256 (ix2 p q)
      * FloatOps.sitofp (F := Ideal) .f32
          ((FloatOps.cmpf (F := Ideal) (φ := .f32) .oge
            (FloatOps.subf (F := Ideal) (φ := .f32) (broadcastTo S1024x256 v3 broadcasts_S1024x1_S1024x256 (ix2 p q))
              (broadcastTo S1024x256 v5 broadcasts_S1x256_S1024x256 (ix2 p q)))
            (Ideal.ofBits .f32 0x00000000#32)).setWidth 32) = _
  rw [bit_widened, broadcastTo_a1_ab_apply v14, broadcastTo_a1_ab_apply v3, broadcastTo_1b_ab_apply v5]
  rfl

/-- The block the accumulator is reset to is zero everywhere. -/
theorem pay1_apply (u : Fin 1) (q : Fin 256) : k0_pay1 (F := Ideal) (ix2 u q) = 0 := by
  unfold k0_pay1
  rw [shapeCast_self]
  exact Ideal.ofBits_zero_f32

end Cert.KernelIdeal.RiskValue

end
-- ==== Proof.KBlocks.lean ====
/-
  Where the kernel's blocks sit in their arrays (the reduction tile t % 16 for the column inputs, the output tile
  t / 16 for the row input and the result), and what the arrays hold when the region starts: the exponentiated
  log-risks and the times laid out as a column and as a row.
-/
import proofs.«122557_j48249662603872_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RiskValue

open Cert.KernelIdeal Cert.KernelIdeal.Gen

variable {F : FTy → Type} [FloatOps F]
variable (m : (ℓ : Loc nD τ sig) → Buf (Elt F) ℓ)

theorem V_v0 (c : Dev nD) :
    (V m c main_v0 : S16384x1.Idx → F .f32) = Host.exp (m ((c : Thread nD τ).loc main_arg0)) := by
  show StableHlo.after hostOps0 (fun b => m (c, b)) (Proc.devRef .tc main_v0) = _
  after_results <;> rfl

theorem V_v1 (c : Dev nD) :
    (V m c main_v1 : S16384x1.Idx → F .f32) = shapeCast S16384x1 (m ((c : Thread nD τ).loc main_arg1)) shapeCasts_S16384_S16384x1 := by
  show StableHlo.after hostOps0 (fun b => m (c, b)) (Proc.devRef .tc main_v1) = _
  after_results <;> rfl

theorem V_v2 (c : Dev nD) :
    (V m c main_v2 : S1x16384.Idx → F .f32) = shapeCast S1x16384 (m ((c : Thread nD τ).loc main_arg1)) shapeCasts_S16384_S1x16384 := by
  show StableHlo.after hostOps0 (fun b => m (c, b)) (Proc.devRef .tc main_v2) = _
  after_results <;> rfl

/-- Where each window's block sits at grid point `t`: the reduction tile `t % 16` for the two column inputs,
    the output tile `t / 16` for the row input and the result. Decided over the 1024 points. -/
theorem idx_facts : ∀ t : Fin cfg0.N,
    win0_0.index t (0 : Fin 2) = t.val % 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

/-- The first column input's block at point `t`, at row `y 0`: row `1024 · (t % 16) + y 0` of the array. -/
theorem iblk0_apply (c : Dev nD) (t : Fin cfg0.N) (y : S1024x1.Idx) (k : Fin 16384)
    (hk : k.val = 1024 * (t.val % 16) + (y 0).val) :
    (iblk m c 0 t : Vec F S1024x1 .f32) y = (V m c main_v0 : S16384x1.Idx → F .f32) (ix2 k (0 : Fin 1)) := by
  obtain ⟨h0, h1, -⟩ := idx_facts t
  show V m c main_v0 (((cfg0.win 0).blk t).view.emb y) = V m c main_v0 (ix2 k (0 : Fin 1))
  refine congrArg (V m c main_v0) (funext fun a => Fin.ext ?_)
  match a with
  | ⟨0, _⟩ => show win0_0.index t (0 : Fin 2) * 1024 + 1 * (y 0).val = k.val; rw [h0, hk]; omega
  | ⟨1, _⟩ => show win0_0.index t (1 : Fin 2) * 1 + 1 * (y 1).val = 0; rw [h1]; have := idx2_lt1 y; omega

/-- The second column input's block at point `t`, at row `y 0`: row `1024 · (t % 16) + y 0` of the array. -/
theorem iblk1_apply (c : Dev nD) (t : Fin cfg0.N) (y : S1024x1.Idx) (k : Fin 16384)
    (hk : k.val = 1024 * (t.val % 16) + (y 0).val) :
    (iblk m c 1 t : Vec F S1024x1 .f32) y = (V m c main_v1 : S16384x1.Idx → F .f32) (ix2 k (0 : Fin 1)) := by
  obtain ⟨-, -, h0, h1, -⟩ := idx_facts t
  show V m c main_v1 (((cfg0.win 1).blk t).view.emb y) = V m c main_v1 (ix2 k (0 : Fin 1))
  refine congrArg (V m c main_v1) (funext fun a => Fin.ext ?_)
  match a with
  | ⟨0, _⟩ => show win0_1.index t (0 : Fin 2) * 1024 + 1 * (y 0).val = k.val; rw [h0, hk]; omega
  | ⟨1, _⟩ => show win0_1.index t (1 : Fin 2) * 1 + 1 * (y 1).val = 0; rw [h1]; have := idx2_lt1 y; omega

/-- The row input's block at point `t`, at lane `y 1`: lane `256 · (t / 16) + y 1` of the array. -/
theorem iblk2_apply (c : Dev nD) (t : Fin cfg0.N) (y : S1x256.Idx) (j : Fin 16384)
    (hj : j.val = 256 * (t.val / 16) + (y 1).val) :
    (iblk m c 2 t : Vec F S1x256 .f32) y = (V m c main_v2 : S1x16384.Idx → F .f32) (ix2 (0 : Fin 1) j) := by
  obtain ⟨-, -, -, -, h0, h1, -⟩ := idx_facts t
  show V m c main_v2 (((cfg0.win 2).blk t).view.emb y) = V m c main_v2 (ix2 (0 : Fin 1) j)
  refine congrArg (V m c main_v2) (funext fun a => Fin.ext ?_)
  match a with
  | ⟨0, _⟩ => show win0_2.index t (0 : Fin 2) * 1 + 1 * (y 0).val = 0; rw [h0]; have := idx2_lt0 y; omega
  | ⟨1, _⟩ => show win0_2.index t (1 : Fin 2) * 256 + 1 * (y 1).val = j.val; rw [h1, hj]; omega

/-- The exponentiated risks as the region finds them, at sample `k`. -/
theorem V_v0_apply (c : Dev nD) (k : Fin 16384) :
    (V m c main_v0 : S16384x1.Idx → F .f32) (ix2 k (0 : Fin 1))
      = FloatOps.hostUnary .exp (m ((c : Thread nD τ).loc main_arg0) (ix2 k (0 : Fin 1))) := by
  rw [V_v0]; rfl

/-- The times as a column, at sample `k`. -/
theorem V_v1_apply (c : Dev nD) (k : Fin 16384) :
    (V m c main_v1 : S16384x1.Idx → F .f32) (ix2 k (0 : Fin 1)) = m ((c : Thread nD τ).loc main_arg1) (ix1 k) := by
  rw [V_v1]
  exact shapeCast_apply _ shapeCasts_S16384_S16384x1 (ix2 k (0 : Fin 1)) (ix1 k) (by
    rw [Shape.rowMajor_val_one, Shape.rowMajor_val_two]
    show k.val = k.val * 1 + 0
    omega)

/-- The times as a row, at sample `j`. -/
theorem V_v2_apply (c : Dev nD) (j : Fin 16384) :
    (V m c main_v2 : S1x16384.Idx → F .f32) (ix2 (0 : Fin 1) j) = m ((c : Thread nD τ).loc main_arg1) (ix1 j) := by
  rw [V_v2]
  exact shapeCast_a_1a_apply _ shapeCasts_S16384_S1x16384 (0 : Fin 1) j

end Cert.KernelIdeal.RiskValue

end
-- ==== Proof.KAccumulate.lean ====
/-
  The accumulation across a grid row, by induction on the grid point: after point n the accumulator holds, at
  lane q, the risk mass of the first 1024 · (n % 16 + 1) samples against sample 256 · (n / 16) + q.
-/
import proofs.«122557_j48249662603872_2_alg».proof.Proof.KPieces
import proofs.«122557_j48249662603872_2_alg».proof.Proof.KPayload
import proofs.«122557_j48249662603872_2_alg».proof.Proof.KBlocks

noncomputable section

open scoped BigOperators
open Idealize.ShloMosaic Idealize.ShloMosaic.TcCoe Idealize.SL.Sem Idealize.ShloMosaic.ValueIdx
open Idealize.ShloMosaic.Pipeline (Dat)

namespace Cert.KernelIdeal.RiskValue

open Cert.KernelIdeal Cert.KernelIdeal.Gen Cert.CoxRisk

variable (m : (ℓ : Loc nD τ sig) → Buf (Elt Ideal) ℓ)

/-- The log-risks and the event times as launched, on core `c`. -/
abbrev lrOf (c : Dev nD) : S16384x1.Idx → EReal := m ((c : Thread nD τ).loc main_arg0)
abbrev ytOf (c : Dev nD) : S16384.Idx → EReal := m ((c : Thread nD τ).loc main_arg1)

/-- ONE GRID POINT. At point `t` the body adds, to what the accumulator holds at lane `q`, the risk mass of the
    1024 samples of reduction tile `t % 16` against sample `256 · (t / 16) + q`: if the accumulator held the
    partial sum over the tiles before, it now holds the partial sum including this tile. -/
theorem tile_step (c : Dev nD) (t : Fin cfg0.N) (xs : Vec Ideal S1x256 .f32) (u : Fin 1) (q : Fin 256)
    (hX : xs (ix2 u q) = partialRisk (expRisk (lrOf m c)) (timeOf (ytOf m c))
        (timeOf (ytOf m c) (256 * (t.val / 16) + q.val)) (1024 * (t.val % 16))) :
    k0_pay2 (F := Ideal) (iblk m c 1 t) (iblk m c 2 t) (iblk m c 0 t) xs (ix2 u q)
      = partialRisk (expRisk (lrOf m c)) (timeOf (ytOf m c))
        (timeOf (ytOf m c) (256 * (t.val / 16) + q.val)) (1024 * (t.val % 16 + 1)) := by
  have hN : t.val < 1024 := lt_of_lt_of_eq t.isLt (show cfg0.N = 1024 from N_0)
  refine (pay2_apply (iblk m c 1 t) (iblk m c 2 t) (iblk m c 0 t) xs u q).trans ?_
  rw [hX]
  refine partialRisk_tile _ _ _ (t.val % 16) _ fun p => ?_
  have hk : 1024 * (t.val % 16) + p.val < 16384 := by omega
  have hj : 256 * (t.val / 16) + q.val < 16384 := by omega
  rw [iblk0_apply m c t (ix2 p (0 : Fin 1)) ⟨_, hk⟩ rfl, iblk1_apply m c t (ix2 p (0 : Fin 1)) ⟨_, hk⟩ rfl,
    iblk2_apply m c t (ix2 (0 : Fin 1) q) ⟨_, hj⟩ rfl, V_v0_apply, V_v1_apply, V_v2_apply]
  simp only [expRisk, timeOf, dif_pos hk, dif_pos hj]

/-- THE ACCUMULATION. After grid point `n` the carried accumulator holds, at lane `q`, the risk mass of the first
    `1024 · (n % 16 + 1)` samples against sample `256 · (n / 16) + q` — by induction on the point: a point that
    starts a row of the grid (`n % 16 = 0`) resets the accumulator to zero first, every other one continues from
    what the point before left. -/
theorem scratch_eq (c : Dev nD) : ∀ (n : ℕ) (h : n < cfg0.N) (u : Fin 1) (q : Fin 256),
    (outsAt0 m c n h).2 (ix2 u q)
      = partialRisk (expRisk (lrOf m c)) (timeOf (ytOf m c))
        (timeOf (ytOf m c) (256 * (n / 16) + q.val)) (1024 * (n % 16 + 1)) := by
  intro n
  induction n using Nat.strong_induction_on with
  | _ n ih =>
    intro h u q
    have hN : n < 1024 := lt_of_lt_of_eq h (show cfg0.N = 1024 from N_0)
    by_cases h0 : n % 16 = 0
    · have h1 : ¬ n % 16 = 15 := by omega
      rw [outsAt0_A m c ⟨n, h⟩ h0 h1]
      dsimp only
      rw [sA (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)]
      refine tile_step m c ⟨n, h⟩ _ u q ?_
      rw [pay1_apply]
      show (0 : EReal) = partialRisk _ _ _ (1024 * (n % 16))
      rw [h0, Nat.mul_zero, partialRisk_zero]
    · have e1 : (n - 1) / 16 = n / 16 := by omega
      have e2 : (n - 1) % 16 + 1 = n % 16 := by omega
      by_cases h1 : n % 16 = 15
      · rw [outsAt0_C m c ⟨n, h⟩ h0 h1]
        dsimp only
        rw [sC (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)]
        refine tile_step m c ⟨n, h⟩ _ u q ?_
        rw [ih (n - 1) (by omega) _ u q, e1, e2]
      · rw [outsAt0_B m c ⟨n, h⟩ h0 h1]
        dsimp only
        rw [sB (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)]
        refine tile_step m c ⟨n, h⟩ _ u q ?_
        rw [ih (n - 1) (by omega) _ u q, e1, e2]

end Cert.KernelIdeal.RiskValue

end
-- ==== Proof.KFinal.lean ====
/-
  The result row after the region: each block written back holds the full denominators of its 256 samples, and
  the 64 blocks written back tile the row.
-/
import proofs.«122557_j48249662603872_2_alg».proof.Proof.KAccumulate

noncomputable section

open scoped BigOperators
open Idealize.ShloMosaic Idealize.ShloMosaic.TcCoe Idealize.SL.Sem Idealize.ShloMosaic.ValueIdx
open Idealize.ShloMosaic.Pipeline (Dat)

namespace Cert.KernelIdeal.RiskValue

open Cert.KernelIdeal Cert.KernelIdeal.Gen Cert.CoxRisk

variable (m : (ℓ : Loc nD τ sig) → Buf (Elt Ideal) ℓ)

/-- The row of risk-set denominators: at lane `j`, the risk mass of all samples against sample `j`. -/
def riskRow (c : Dev nD) : Buf (Elt Ideal) ((c : Thread nD τ).loc main_v3) :=
  fun (i : S1x16384.Idx) => sumRisk (lrOf m c) (ytOf m c) (i 1).val

/-- At the last point of a grid row (`t % 16 = 15`) the body's accumulated block, at lane `q`, is the denominator
    of sample `256 · (t / 16) + q`: all sixteen tiles of 1024 samples are in. -/
theorem block_value (c : Dev nD) (t : Fin cfg0.N) (h0 : ¬t.val % 16 = 0) (h15 : t.val % 16 = 15)
    (u : Fin 1) (q : Fin 256) (i : S1x16384.Idx) (hi : (i 1).val = 256 * (t.val / 16) + q.val) :
    k0_pay2 (F := Ideal) (iblk m c 1 t) (iblk m c 2 t) (iblk m c 0 t)
        (outsAt0 m c (t.val - 1) (Nat.lt_of_le_of_lt (Nat.sub_le _ _) t.isLt)).2 (ix2 u q)
      = riskRow m c i := by
  have e1 : (t.val - 1) / 16 = t.val / 16 := by omega
  have e2 : (t.val - 1) % 16 + 1 = t.val % 16 := by omega
  refine (tile_step m c t _ u q (by rw [scratch_eq m c (t.val - 1) _ u q, e1, e2])).trans ?_
  show _ = sumRisk (lrOf m c) (ytOf m c) (i 1).val
  unfold sumRisk
  rw [hi, h15]

/-- What a flushing point writes back is its block of the row of denominators. -/
theorem flushed_eq (c : Dev nD) (t : Fin cfg0.N) (hf : (cfg0.win 3).flush t = true) :
    (dats m 0 c).flushed 3 t = ((cfg0.win 3).blk t).view.read (Elt Ideal) (riskRow m c) := by
  have hN : t.val < 1024 := lt_of_lt_of_eq t.isLt (show cfg0.N = 1024 from N_0)
  have h15 : t.val % 16 = 15 := (flush0_3 t).mp hf
  have h0 : ¬t.val % 16 = 0 := by omega
  obtain ⟨-, -, -, -, -, -, i0, i1⟩ := idx_facts t
  have hcut : ∀ X : Vec Ideal S1x256 .f32, (cfg0.win 3).cut (grid0.coords t) X = X := fun X => rfl
  show (cfg0.win 3).cut (grid0.coords t) ((dats m 0 c).after 3 t) = _
  rw [after0_3, outsAt0_C m c t h0 h15]
  dsimp only
  rw [oC (F := Ideal) c (grid0.coords t) (ms0_0 t) (hs0_0 t) (ms0_1 t) (hs0_1 t) (ms0_2 t) (hs0_2 t) (ms0_3 t) (hs0_3 t) scM0_0 (Memref.isWhole_whole _)]
  rw [hcut]
  funext y
  obtain ⟨u, q, rfl⟩ : ∃ (u : Fin 1) (q : Fin 256), y = ix2 u q := ⟨y 0, y 1, eq_ix2 y⟩
  refine (block_value m c t h0 h15 u q (((cfg0.win 3).blk t).view.emb (ix2 u q)) ?_).trans ?_
  · show win0_3.index t (1 : Fin 2) * 256 + 1 * q.val = _
    rw [i1]; omega
  · generalize riskRow m c = G
    rfl

/-- An index of the row is in point `t`'s block iff each coordinate is in the block's range on its axis. -/
theorem mem_blk3 (t : Fin cfg0.N) (i : S1x16384.Idx) :
    i ∈ ((cfg0.win 3).blk t).view.set ↔ ∀ a : Fin 2, win0_3.index t a * S1x256.size a ≤ (i a).val
      ∧ (i a).val < win0_3.index t a * S1x256.size a + S1x256.size a := by
  show i ∈ ((View.whole main_v3).slice (win0_3.rect t)).set ↔ _
  rw [View.set_slice_whole, Rect.mem_set_unit]
  exact Iff.rfl

/-- THE ROW AFTER THE REGION: lane `j` lies in the block written back at the last point of grid row `j / 256`,
    so the whole row ends at the denominators. -/
theorem final_row (c : Dev nD) : (dats m 0 c).arrAt 3 cfg0.N = riskRow m c :=
  (dats m 0 c).arrAt_eq_of_cover 3 (riskRow m c) (flushed_eq m c) fun i => by
    have hi1 : (i 1).val < 16384 := idx2_lt1 (n0 := 1) (n1 := 16384) i
    have hi0 : (i 0).val < 1 := idx2_lt0 (n0 := 1) (n1 := 16384) i
    have hN : cfg0.N = 1024 := N_0
    obtain ⟨t, ht⟩ : ∃ t : Fin cfg0.N, t.val = 16 * ((i 1).val / 256) + 15 :=
      ⟨⟨16 * ((i 1).val / 256) + 15, by rw [hN]; omega⟩, rfl⟩
    obtain ⟨-, -, -, -, -, -, i0, i1⟩ := idx_facts t
    refine ⟨t, (flush0_3 t).mpr (by omega), ?_⟩
    rw [mem_blk3]
    intro a
    match a with
    | ⟨0, _⟩ =>
      show win0_3.index t (0 : Fin 2) * 1 ≤ (i 0).val ∧ (i 0).val < win0_3.index t (0 : Fin 2) * 1 + 1
      rw [i0]; omega
    | ⟨1, _⟩ =>
      show win0_3.index t (1 : Fin 2) * 256 ≤ (i 1).val ∧ (i 1).val < win0_3.index t (1 : Fin 2) * 256 + 256
      rw [i1]; omega

end Cert.KernelIdeal.RiskValue

end
-- ==== Proof.LossTail.lean ====
/-
  The last operations of the loss, shared by both programs: from the column of log-denominators to the scalar
  -(∑ⱼ (lrⱼ - Lⱼ) · sⱼ) / ∑ⱼ sⱼ.
-/
import proofs.«122557_j48249662603872_2_alg».proof.Proof.RiskSum

noncomputable section

namespace Cert.CoxRisk

open Idealize.ShloMosaic

abbrev Col : Shape := ⟨2, ![16384, 1]⟩
abbrev Smp : Shape := ⟨1, ![16384]⟩
abbrev Sc : Shape := ⟨0, ![]⟩

/-- The loss from the column `L` of log-denominators: `-(∑ⱼ (lrⱼ - Lⱼ) · sⱼ) / ∑ⱼ sⱼ`, the sums and the quotient as
    the host computes them. Both programs end with exactly these operations. -/
def lossOf (hc : Smp.ShapeCasts Col) (hr : Col.ReducesTo [0, 1] Sc) (hS : 0 < Sc.numel)
    (lr : Col.Idx → EReal) (ys : Smp.Idx → EReal) (L : Col.Idx → EReal) : Sc.Idx → EReal :=
  Host.divf (F := Ideal) (φ := .f32)
    (Host.negf (F := Ideal) (φ := .f32)
      (Host.reduceAdd (F := Ideal) (φ := .f32)
        (mulf (F := Ideal) (φ := .f32) (subf (F := Ideal) (φ := .f32) lr L) (shapeCast Col ys hc))
        (constant (F := Ideal) Sc .f32 0x00000000#32) hr hS))
    (Host.reduceAdd (F := Ideal) (φ := .f32) (shapeCast Col ys hc) (constant (F := Ideal) Sc .f32 0x00000000#32) hr hS)

/-- The column of log-denominators: at sample `j`, the logarithm of its risk-set denominator. -/
def logRiskCol (lr : Col.Idx → EReal) (yt : Smp.Idx → EReal) : Col.Idx → EReal :=
  fun i => FloatOps.hostUnary (F := Ideal) (φ := .f32) .log (sumRisk lr yt (i 0).val)

end Cert.CoxRisk

end
-- ==== Proof.KTail.lean ====
/-
  The host operations after the region, read as the shared last operations of the loss applied to the logarithm
  of the region's result row laid out as a column.
-/
import proofs.«122557_j48249662603872_2_alg».proof.Proof.Gen.KernelIdeal.Frame
import proofs.«122557_j48249662603872_2_alg».proof.Proof.LossTail
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RiskValue

open Cert.KernelIdeal Cert.KernelIdeal.Gen Cert.CoxRisk

variable (m : (ℓ : Loc nD τ sig) → Buf (Elt Ideal) ℓ)

/-- The host operations after the region compute the loss from the logarithm of the region's result row, laid
    out as a column. -/
theorem tail_eq (c : Dev nD) :
    Pipeline.afterTail₀ cfgs (dats m) 0 (V0 m) [hostOps1] c main_v12
      = lossOf shapeCasts_S16384_S16384x1 reducesTo_S16384x1_S_d0_1 h_S_
          (m ((c : Thread nD τ).loc main_arg0)) (m ((c : Thread nD τ).loc main_arg2))
          (Host.log (F := Ideal) (φ := .f32)
            (shapeCast S16384x1 ((dats m 0 c).arrAt 3 cfg0.N) shapeCasts_S1x16384_S16384x1)) := by
  unfold Pipeline.afterTail₀
  show StableHlo.after hostOps1 _ (Proc.devRef .tc main_v12) = _
  after_results
  have e3 : Pipeline.withArrays (cfgs 0).spec c (V0 m c) (fun w => (dats m 0 c).arrAt w (cfgs 0).N)
      (Proc.devRef .tc main_v3) = (dats m 0 c).arrAt 3 cfg0.N :=
    Pipeline.withArrays_arr spec0 launch0.win.arr_inj c _ _ 3
  have e0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e3, e0, e2]
  rfl

end Cert.KernelIdeal.RiskValue

end
-- ==== Proof.KResult.lean ====
/-
  The kernel's run read as a value: the loss of the column of log-denominators of the argument arrays.
-/
import proofs.«122557_j48249662603872_2_alg».proof.Proof.KFinal
import proofs.«122557_j48249662603872_2_alg».proof.Proof.KTail

noncomputable section

open Idealize.ShloMosaic Idealize.ShloMosaic.TcCoe Idealize.SL.Sem Idealize.ShloMosaic.ValueIdx
open Idealize.ShloMosaic.Pipeline (Dat)

namespace Cert.KernelIdeal.RiskValue

open Cert.KernelIdeal Cert.KernelIdeal.Gen Cert.CoxRisk

variable (m : (ℓ : Loc nD τ sig) → Buf (Elt Ideal) ℓ)

/-- A row `[1, 16384]` laid out as a column `[16384, 1]` reads, at `(j, u)`, the row at lane `j`. -/
theorem row_as_col_apply (A : S1x16384.Idx → EReal) (j : Fin 16384) (u : Fin 1) :
    shapeCast S16384x1 A shapeCasts_S1x16384_S16384x1 (ix2 j u) = A (ix2 (0 : Fin 1) j) :=
  shapeCast_apply A shapeCasts_S1x16384_S16384x1 (ix2 j u) (ix2 (0 : Fin 1) j) (by
    rw [Shape.rowMajor_val_two, Shape.rowMajor_val_two]
    show 0 * 16384 + j.val = j.val * 1 + u.val
    omega)

/-- The row of denominators laid out as a column, under the logarithm: the column of log-denominators
    (entry `(j, 0)` of the column is lane `j` of the row). -/
theorem logCol_eq (c : Dev nD) :
    Host.log (F := Ideal) (φ := .f32)
        (shapeCast S16384x1 (riskRow m c : S1x16384.Idx → EReal) shapeCasts_S1x16384_S16384x1)
      = logRiskCol (lrOf m c) (ytOf m c) := by
  funext i
  obtain ⟨j, u, rfl⟩ : ∃ (j : Fin 16384) (u : Fin 1), i = ix2 j u := ⟨i 0, i 1, eq_ix2 i⟩
  show FloatOps.hostUnary (F := Ideal) (φ := .f32) .log
      (shapeCast S16384x1 (riskRow m c : S1x16384.Idx → EReal) shapeCasts_S1x16384_S16384x1 (ix2 j u)) = _
  rw [row_as_col_apply]
  rfl

/-- THE KERNEL'S RUN, READ: every weakly fair execution terminates with the result at the loss of the column of
    log-denominators of the argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v12)
        = lossOf shapeCasts_S16384_S16384x1 reducesTo_S16384x1_S_d0_1 h_S_
            (m ((c.tc : Thread nD τ).loc main_arg0)) (m ((c.tc : Thread nD τ).loc main_arg2))
            (logRiskCol (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v12 (Pipeline.mem_restRefs_of main_v12 (by decide) (by decide))).trans (by
        rw [tail_eq, final_row, logCol_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RiskValue

end
-- ==== Proof.RefRead.lean ====
/-
  The reference read index by index: its column sums of the masked risk matrix are the risk-set denominators,
  and its result is the shared last operations applied to their logarithms.
-/
import proofs.«122557_j48249662603872_2_alg».proof.Proof.Gen.ReferenceIdeal.Run
import proofs.«122557_j48249662603872_2_alg».proof.Proof.Gen.ReferenceIdeal.Read
import proofs.«122557_j48249662603872_2_alg».proof.Proof.LossTail
import Idealize.ShloMosaic.Lib.ValueIdx
import Idealize.ShloMosaic.PureOps.Ideal.Laws

noncomputable section

open scoped BigOperators
open Idealize.ShloMosaic Idealize.ShloMosaic.ValueIdx

namespace Cert.ReferenceIdeal.RiskValue

open Cert.ReferenceIdeal Cert.ReferenceIdeal.Gen Cert.ReferenceIdeal.Read Cert.CoxRisk

/-- The reference's column sums of the masked risk matrix: at sample `j`, the risk-set denominator. -/
theorem sums_apply (x0 : S16384x1.Idx → EReal) (x1 : S16384.Idx → EReal) (j : Fin 16384) :
    val_main_v13 (F := Ideal) x0 x1 (ix1 j) = sumRisk x0 x1 j.val := by
  rw [val_main_v13_apply]
  show Ideal.ofBits .f32 0x00000000#32 + _ = _
  rw [Ideal.ofBits_zero_f32, zero_add]
  unfold sumRisk
  rw [partialRisk_all]
  refine Finset.sum_congr rfl fun k _ => ?_
  have e11 : idx_main_v11 (idx_main_v13 (ix1 j) k) = ix2 k (0 : Fin 1) :=
    funext fun a => Fin.ext (by match a with | ⟨0, _⟩ => rfl | ⟨1, _⟩ => rfl)
  have e4 : idx_main_v0 (idx_main_v4 (idx_main_v13 (ix1 j) k)) = ix1 k :=
    funext fun a => Fin.ext (by match a with | ⟨0, _⟩ => show k.val * 1 + 0 = k.val; omega)
  have e5 : idx_main_v0 (idx_main_v3 (idx_main_v5 (idx_main_v13 (ix1 j) k))) = ix1 j :=
    funext fun a => Fin.ext (by match a with | ⟨0, _⟩ => show j.val * 1 + 0 = j.val; omega)
  rw [val_main_v12_apply, val_main_v11_apply, val_main_v10_apply, val_main_v9_apply, val_main_v8_apply,
    val_main_v6_apply, val_main_v4_apply, val_main_v5_apply, val_main_v3_apply, val_main_v0_apply, val_main_v0_apply,
    val_main_v7_apply, val_main_cst_0_apply, e11, e4, e5, expRisk_fin, timeOf_fin, timeOf_fin]
  rfl

/-- The reference's column of log-denominators. -/
theorem logCol_eq (x0 : S16384x1.Idx → EReal) (x1 : S16384.Idx → EReal) :
    val_main_v15 (F := Ideal) x0 x1 = logRiskCol x0 x1 := by
  funext i
  obtain ⟨j, u, rfl⟩ : ∃ (j : Fin 16384) (u : Fin 1), i = ix2 j u := ⟨i 0, i 1, eq_ix2 i⟩
  have e15 : idx_main_v15 (ix2 j u) = ix1 j :=
    funext fun a => Fin.ext (by match a with | ⟨0, _⟩ => show j.val * 1 + u.val = j.val; omega)
  rw [val_main_v15_apply, val_main_v14_apply, e15, sums_apply]
  rfl

/-- The reference's result is the loss of its column of log-denominators. -/
theorem result_eq (x0 : S16384x1.Idx → EReal) (x1 x2 : S16384.Idx → EReal) :
    val_main_v20 (F := Ideal) x0 x1 x2
      = lossOf shapeCasts_S16384_S16384x1 reducesTo_S16384x1_S_d0_1 h_S_ x0 x2 (logRiskCol x0 x1) := by
  rw [← logCol_eq]
  rfl

end Cert.ReferenceIdeal.RiskValue

end
-- ==== Proof.lean ====
/-
  The Cox partial-likelihood loss, kernel against reference, at the ideal instance.

  Both programs compute
      loss = -(∑ⱼ (lrⱼ - log Dⱼ) · sⱼ) / ∑ⱼ sⱼ,      Dⱼ = ∑ₖ exp(lrₖ) · [tₖ - tⱼ ≥ 0],
  over 16384 samples with log-risks `lr`, event times `t` and event indicators `s`.

  The reference builds the 16384 × 16384 masked risk matrix and sums its columns in one reduction. The kernel
  tiles the matrix 1024 × 256 over a 64 × 16 grid: at grid point (jb, ib) it forms the tile's mask from a block
  of times as a column and a block of times as a row, multiplies by the block of exponentiated risks, sums the
  tile's 1024 rows and adds the 256 lane sums to an accumulator that is reset at ib = 0 and written out at
  ib = 15. So lane q of output block jb is the ordered sum over the sixteen tiles of the tile sums, which over
  the extended reals (a commutative monoid under addition) is the sum over all 16384 samples: Dⱼ for
  j = 256·jb + q. The accumulation is proved by induction on the grid point (after point n the accumulator
  holds the partial sum over the first 1024·(n % 16 + 1) samples); the comparison bit widened and read signed
  (the kernel) is the bit read unsigned (the reference). After the region both programs apply the same host
  operations to the column of log-denominators; the kernel lays the row out as a column before the logarithm,
  the reference after it, which is the same column entry by entry. No step uses finiteness of the inputs.
-/
import proofs.«122557_j48249662603872_2_alg».proof.Defs
import proofs.«122557_j48249662603872_2_alg».proof.Proof.Gen.Kernel
import proofs.«122557_j48249662603872_2_alg».proof.Proof.Gen.Kernel.Frame
import proofs.«122557_j48249662603872_2_alg».proof.Proof.Gen.KernelIdeal
import proofs.«122557_j48249662603872_2_alg».proof.Proof.Gen.KernelIdeal.Frame
import proofs.«122557_j48249662603872_2_alg».proof.Proof.Gen.ReferenceIdeal
import proofs.«122557_j48249662603872_2_alg».proof.Proof.Gen.ReferenceIdeal.Run
import proofs.«122557_j48249662603872_2_alg».proof.Proof.Gen.Pre_finite_inputs
import proofs.«122557_j48249662603872_2_alg».proof.Proof.KResult
import proofs.«122557_j48249662603872_2_alg».proof.Proof.RefRead
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the loss of the column of log-denominators of arguments that agree. -/
theorem algebraic : Cert.algebraic_KernelIdeal_ReferenceIdeal := by
  intro m ρ m' ρ' _ hagree
  refine ⟨_, Cert.KernelIdeal.RiskValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))).trans ?_
  rw [Cert.ReferenceIdeal.RiskValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
